-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096 .f32) (main_arg8 : FVec F S4096x1024 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096x1024 .f32) (main_arg5 : FVec F S1024 .f32) (main_arg6 : FVec F S4096 .f32) (main_arg7 : FVec F S4096 .f32) (main_arg8 : FVec F S4096x1024 .f32) (main_arg9 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S2x4096x4096 .f32) (main_arg1 : FVec F S2x4096x4096 .f32) (main_arg2 : FVec F S4096 .f32) (main_arg3 : FVec F S4096 .f32) (main_arg4 : FVec F S4096x1024 .f32) (main_arg5 : FVec F S1024 .f32) (main_arg6 : FVec F S4096 .f32) (main_arg7 : FVec F S4096 .f32) (main_arg8 : FVec F S4096x1024 .f32) (main_arg9 : FVec F S1024 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x4096 .f32 := Host.absf main_arg1
  let main_cst_0 : FVec F S_ .f32 := constant S_ .f32 0x7F800000#32
  let main_v5 : FVec F S2x4096x4096 .f32 := broadcastInDim S2x4096x4096 ![] bcast_S_S2x4096x4096 main_cst_0
  let main_v6 : IVec S2x4096x4096 1 := cmpf .olt main_v4 main_v5
  let main_c_1 : IVec S_ 1 := constantI S_ 1 1#1
  let main_v7 : IVec S_ 1 := (fun x v => Host.reduce IntOp.andi x v reducesTo_S2x4096x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S2x4096x4096 : Shape := ⟨3, ![2, 4096, 4096]⟩
abbrev S4096 : Shape := ⟨1, ![4096]⟩
abbrev S4096x1024 : Shape := ⟨2, ![4096, 1024]⟩
abbrev S1024 : Shape := ⟨1, ![1024]⟩
abbrev S8192x4096 : Shape := ⟨2, ![8192, 4096]⟩
abbrev S1x4096 : Shape := ⟨2, ![1, 4096]⟩
abbrev S1x1024 : Shape := ⟨2, ![1, 1024]⟩
abbrev S8192x1024 : Shape := ⟨2, ![8192, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩
abbrev S2x4096x1024 : Shape := ⟨3, ![2, 4096, 1024]⟩

abbrev nBuf : Space → Nat
  | .hbm => 24
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S8192x4096, .f32⟩
  | .hbm, ⟨11, _⟩ => ⟨S4096x1024, .bf16⟩
  | .hbm, ⟨12, _⟩ => ⟨S1x4096, .f32⟩
  | .hbm, ⟨13, _⟩ => ⟨S1x4096, .f32⟩
  | .hbm, ⟨14, _⟩ => ⟨S1x1024, .f32⟩
  | .hbm, ⟨15, _⟩ => ⟨S8192x1024, .f32⟩
  | .hbm, ⟨16, _⟩ => ⟨S2x4096x1024, .f32⟩
  | .hbm, ⟨17, _⟩ => ⟨S8192x4096, .f32⟩
  | .hbm, ⟨18, _⟩ => ⟨S4096x1024, .bf16⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S8192x1024, .f32⟩
  | .hbm, ⟨23, _⟩ => ⟨S2x4096x1024, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .f32⟩
  | .local _ .vmem, ⟨9, _⟩ => ⟨S256x4096, .f32⟩
  | .local _ .vmem, ⟨10, _⟩ => ⟨S1x4096, .f32⟩
  | .local _ .vmem, ⟨11, _⟩ => ⟨S1x4096, .f32⟩
  | .local _ .vmem, ⟨12, _⟩ => ⟨S4096x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S2x4096x4096_S8192x4096 : S2x4096x4096.ShapeCasts S8192x4096
  bitsLt_bf16_f32 : FTy.bits .bf16 < FTy.bits .f32
  shapeCasts_S4096_S1x4096 : S4096.ShapeCasts S1x4096
  shapeCasts_S1024_S1x1024 : S1024.ShapeCasts S1x1024
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S8192x1024_S2x4096x1024 : S8192x1024.ShapeCasts S2x4096x1024
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1024.size a ≤ S4096x1024.size a
  hwx1_3 : ∀ i : grid1.Coords, EltTy.bits .bf16 = 32 ∨ (Rect.block (s := S4096x1024) S4096x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1024.size a ≤ S8192x1024.size a
  hwx1_5 : ∀ i : grid1.Coords, EltTy.bits .f32 = 32 ∨ (Rect.block (s := S8192x1024) S256x1024.size (cc1_transform_5 i) (hinb1_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S4096x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S4096 : Shape := ⟨1, ![4096]⟩
abbrev S4096x1024 : Shape := ⟨2, ![4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x1024 : Shape := ⟨3, ![2, 4096, 1024]⟩
abbrev S1x1x1024 : Shape := ⟨3, ![1, 1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4096, .f32⟩
  | .hbm, ⟨7, _⟩ => ⟨S4096, .f32⟩
  | .hbm, ⟨8, _⟩ => ⟨S4096x1024, .f32⟩
  | .hbm, ⟨9, _⟩ => ⟨S1024, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x4096, .f32⟩
  | .hbm, ⟨26, _⟩ => ⟨S2x4096x4096, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x4096, .f32⟩
  | .hbm, ⟨32, _⟩ => ⟨S2x4096x4096, .f32⟩
  | .hbm, ⟨33, _⟩ => ⟨S1x1x4096, .f32⟩
  | .hbm, ⟨34, _⟩ => ⟨S2x4096x4096, .f32⟩
  | .hbm, ⟨35, _⟩ => ⟨S2x4096x4096, .f32⟩
  | .hbm, ⟨36, _⟩ => ⟨S1x1x4096, .f32⟩
  | .hbm, ⟨37, _⟩ => ⟨S2x4096x4096, .f32⟩
  | .hbm, ⟨38, _⟩ => ⟨S2x4096x4096, .f32⟩
  | .hbm, ⟨39, _⟩ => ⟨S2x4096x1024, .f32⟩
  | .hbm, ⟨40, _⟩ => ⟨S1x1x1024, .f32⟩
  | .hbm, ⟨41, _⟩ => ⟨S2x4096x1024, .f32⟩
  | .hbm, ⟨42, _⟩ => ⟨S2x4096x1024, .f32⟩
  | .hbm, ⟨43, _⟩ => ⟨S_, .f32⟩
  | .hbm, ⟨44, _⟩ => ⟨S2x4096, .f32⟩
  | .hbm, ⟨45, _⟩ => ⟨S2x4096x1, .f32⟩
  | .hbm, ⟨46, _⟩ => ⟨S_, .f32⟩
  | .hbm, ⟨47, _⟩ => ⟨S2x4096x1, .f32⟩
  | .hbm, ⟨48, _⟩ => ⟨S2x4096x1, .f32⟩
  | .hbm, ⟨49, _⟩ => ⟨S2x4096x4096, .f32⟩
  | .hbm, ⟨50, _⟩ => ⟨S2x4096x4096, .f32⟩
  | .hbm, ⟨51, _⟩ => ⟨S2x4096x4096, .f32⟩
  | .hbm, ⟨52, _⟩ => ⟨S_, .f32⟩
  | .hbm, ⟨53, _⟩ => ⟨S2x4096, .f32⟩
  | .hbm, ⟨54, _⟩ => ⟨S2x4096x1, .f32⟩
  | .hbm, ⟨55, _⟩ => ⟨S_, .f32⟩
  | .hbm, ⟨56, _⟩ => ⟨S2x4096x1, .f32⟩
  | .hbm, ⟨57, _⟩ => ⟨S2x4096x1, .f32⟩
  | .hbm, ⟨58, _⟩ => ⟨S2x4096x4096, .f32⟩
  | .hbm, ⟨59, _⟩ => ⟨S2x4096x4096, .f32⟩
  | .hbm, ⟨60, _⟩ => ⟨S_, .f32⟩
  | .hbm, ⟨61, _⟩ => ⟨S2x4096x1, .f32⟩
  | .hbm, ⟨62, _⟩ => ⟨S2x4096x1, .f32⟩
  | .hbm, ⟨63, _⟩ => ⟨S2x4096x1, .f32⟩
  | .hbm, ⟨64, _⟩ => ⟨S2x4096x4096, .f32⟩
  | .hbm, ⟨65, _⟩ => ⟨S2x4096x4096, .f32⟩
  | .hbm, ⟨66, _⟩ => ⟨S1x1x4096, .f32⟩
  | .hbm, ⟨67, _⟩ => ⟨S2x4096x4096, .f32⟩
  | .hbm, ⟨68, _⟩ => ⟨S2x4096x4096, .f32⟩
  | .hbm, ⟨69, _⟩ => ⟨S1x1x4096, .f32⟩
  | .hbm, ⟨70, _⟩ => ⟨S2x4096x4096, .f32⟩
  | .hbm, ⟨71, _⟩ => ⟨S2x4096x4096, .f32⟩
  | .hbm, ⟨72, _⟩ => ⟨S2x4096x1024, .f32⟩
  | .hbm, ⟨73, _⟩ => ⟨S1x1x1024, .f32⟩
  | .hbm, ⟨74, _⟩ => ⟨S2x4096x1024, .f32⟩
  | .hbm, ⟨75, _⟩ => ⟨S2x4096x1024, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  reducesTo_S2x4096x4096_S2x4096_d2 : S2x4096x4096.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x4096_0_1_2 : S2x4096x1.BroadcastsInDim S2x4096x4096 (![0, 1, 2] : Fin 3 → Fin S2x4096x4096.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  bcast_S1024_S1x1x1024_2 : S1024.BroadcastsInDim S1x1x1024 (![2] : Fin 1 → Fin S1x1x1024.rank)
  bcast_S1x1x1024_S2x4096x1024_0_1_2 : S1x1x1024.BroadcastsInDim S2x4096x1024 (![0, 1, 2] : Fin 3 → Fin S2x4096x1024.rank)
  dot_S2x4096x4096_S4096x1024_S2x4096x1024_2_0_01_1_n_n_wf : DotDims.WF S2x4096x4096 S4096x1024 S2x4096x1024 [2] [0] [0, 1] [1] [] []

variable [Facts₀]

def dot_S2x4096x4096_S4096x1024_S2x4096x1024_2_0_01_1_n_n : DotDims S2x4096x4096 S4096x1024 S2x4096x1024 where
  lhsContracting := [2]
  rhsContracting := [0]
  lhsNonContracting := [0, 1]
  rhsNonContracting := [1]
  lhsBatch := []
  rhsBatch := []
  wf := dot_S2x4096x4096_S4096x1024_S2x4096x1024_2_0_01_1_n_n_wf

class Facts : Prop extends Facts₀ where

variable [Facts]
-- ==== Proof.KernelRun.lean ====
/-
  The run of the program with its two projection calls, read back in full.

  The program is five stretches in a row: host reshapes and the weight's change of format, the first call, host
  operations again (the first result reshaped, the second branch's operands prepared), the second call, one last
  reshape. Folding the buffer contents through these five stretches from the launch memory gives, on every core,
  one valuation of the buffers at the end. This module proves that every weakly fair execution terminates and that
  the final memory agrees with that valuation at EVERY buffer that lives outside the calls' staging memory — the
  two results included, not only the ten arguments. Any property of the final memory that follows from this
  agreement is therefore a property of every execution.
-/
import proofs.«149808_j43250320671027_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each of the two calls is entered exactly once. -/
theorem pipes_nodup : (Pipeline.Seg.pipes (segs m ρ)).Nodup := by
  have e : Pipeline.Seg.pipes (segs m ρ) = [(0 : Fin 2), 1] := rfl
  rw [e]; decide

/-- Each stretch ends in the state the next one starts from; after the last reshape the buffers sit at the end
    of the fold, beside the random-number register and a core that owes nothing. -/
theorem chain_ok : Pipeline.Seg.Chains (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) := by
  refine ⟨?_, ?_, ?_, ?_, ?_, ?_⟩
  · intro c; exact Entails.rfl
  · intro c; exact Entails.rfl
  · intro c; exact Entails.rfl
  · intro c; exact Entails.rfl
  · intro c; exact Entails.rfl
  · intro c
    show iprop(StableHlo.held (c : Thread nD τ) (Pipeline.ucRefs τ sig) (W5 m ρ c) ∗ R c) ⊢ _
    iintro ⟨Hbufs, Hreg, Howes⟩
    isplitr [Howes]
    · isplitl [Hbufs]
      · iexact Hbufs
      · iexact Hreg
    · iexact Howes

/-- At launch every core holds its buffers at the launch memory, its register, and owes nothing. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred (0 : Dev nD → CellTallies nD τ sig Unit) c ∗ prngReg c (ρ c) ∗ iprop(emp))) ∗ levAts L lv)
      ⊢ (|={Set.univ}=> bigSep Finset.univ fun c : Dev nD => iprop(StableHlo.held (c : Thread nD τ) (Pipeline.ucRefs τ sig) (W0 m ρ c) ∗ R c) : sProp 𝕄) := by
  refine Pipeline.initEach L lv fun c => ?_
  rw [Pipeline.unscopedBufs_held c (W0 m ρ c)]
  iintro ⟨⟨Hbufs, -, Howes, -, Hreg, -⟩, -⟩
  imodintro
  isplitl [Hbufs]
  · iexact Hbufs
  isplitl [Hreg]
  · iexists _; iexact Hreg
  · iexists ∅; iexact Howes

/-- Holding every buffer at the end of the fold, against a physical state: that state's memory IS the fold's
    valuation at each of those buffers. -/
theorem read_back (c : Dev nD) (s' : Phys nD τ sig (Elt F)) :
    iprop(Tₙ m ρ c ∗ SI s') ⊢ (|={Set.univ}=> iprop(⌜∀ b ∈ Pipeline.ucRefs τ sig, s'.mem.mem (((c : Thread nD τ)).1, b) = W5 m ρ c b⌝ ∗ SI s') : sProp 𝕄) := by
  iintro ⟨⟨Hbufs, -⟩, Hphys⟩
  imodintro
  unfold StableHlo.held
  iapply (pointsTo_read_all (Pipeline.ucRefs τ sig) (fun b => (((c : Thread nD τ)).1, b)) (W5 m ρ c) s')
  isplitl [Hbufs]
  · iexact Hbufs
  · iexact Hphys

set_option backward.isDefEq.respectTransparency.types false in
/-- THE RUN: every weakly fair execution terminates without a fault, and whatever follows from "the final memory is
    the fold's valuation at every buffer outside staging memory" holds of the final state. -/
theorem run_read {Q : PUnit × MemSt nD τ sig (Elt F) → Prop}
    (hQ : ∀ s : MemSt nD τ sig (Elt F), (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (pipes_nodup m ρ)
    (O₀ := 0) (hL := fun _ _ => rfl) (G := fun _ => iprop(emp))
    (u₀ := initOf (Pipeline.cells cfgs cellOf_inj) (Pipeline.launchToks cfgs cellOf_inj))
    (hu₀ := by
      have hemp : (BI.emp : sProp 𝕄) ⊢ bigSep Finset.univ (fun _ : Dev nD => (BI.emp : sProp 𝕄)) := by
        rw [BI.bigSep_emp_const]
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from Entails.rfl)
        iexact H
      · iapply hemp
        iempintro)
    (T₀ := fun c => iprop(StableHlo.held (c : Thread nD τ) (Pipeline.ucRefs τ sig) (W0 m ρ c) ∗ R c)) (Tₙ := Tₙ m ρ)
    (hch := chain_ok m ρ)
    (hinit := first_state m ρ)
    (QY := fun c s => ∀ b ∈ Pipeline.ucRefs τ sig, s.mem (((c : Thread nD τ)).1, b) = W5 m ρ c b)
    (hfin := read_back m ρ)
    (hQ := hQ)

end Cert.KernelIdeal.Hand

end
-- ==== Proof.Spec.lean ====
/-
  The mathematics of one branch: a row is centred by its mean, scaled by the reciprocal square root of its variance
  plus a small constant, multiplied entrywise by a scale vector and shifted by a bias vector, and the resulting row is
  multiplied into a weight matrix and shifted by an output bias. Everything is over the extended reals, with the two
  literal constants kept as the words the programs print (the row width 4096 and the small constant), never evaluated.

  The normalised row is written in two groupings of the same product — the centred entry times (the reciprocal root
  times the scale), and (the centred entry times the reciprocal root) times the scale — which agree because
  multiplication of extended reals is associative; no finiteness is needed for that.

  The result of a branch is then stated twice as ONE function of the argument arrays, index by index: over the
  [2, 4096, 1024] result, and over the same data laid out as [8192, 1024] with the operands as [8192, 4096], [1, 4096],
  [1, 1024]. (That re-laying the second form in row-major order gives the first is proved beside the host's re-layings.)
-/
import Idealize.ShloMosaic.PureOps.Ideal
import Idealize.ShloMosaic.PureOps.Ideal.Laws
import Idealize.ShloMosaic.Lib.ValueIdx
import Idealize.ShloMosaic.Lib.Pipeline.Value

noncomputable section

namespace Cert.LnProj

open Idealize.ShloMosaic Idealize.ShloMosaic.ValueIdx

/-- The row width, as the programs write it: the f32 word of 4096.0. -/
abbrev width : EReal := Ideal.ofBits .f32 0x45800000#32
/-- The small constant added to the variance, as the programs write it. -/
abbrev tiny : EReal := Ideal.ofBits .f32 0x358637BD#32

/-- The mean of a row: its sum divided by the width. -/
def mean (x : Fin 4096 → EReal) : EReal := Ideal.div (∑ k : Fin 4096, x k) width
/-- A row's entry with the mean taken off. -/
def ctr (x : Fin 4096 → EReal) (k : Fin 4096) : EReal := x k - mean x
/-- The variance of a row: the mean of the squares of its centred entries. -/
def var (x : Fin 4096 → EReal) : EReal := Ideal.div (∑ k : Fin 4096, ctr x k * ctr x k) width
/-- The reciprocal square root of the variance plus the small constant. -/
def rstd (x : Fin 4096 → EReal) : EReal := Ideal.rsqrt (var x + tiny)

/-- The normalised row, the reciprocal root folded into the scale first. -/
def normFolded (x s b : Fin 4096 → EReal) (k : Fin 4096) : EReal := ctr x k * (rstd x * s k) + b k
/-- The normalised row, the factors taken left to right. -/
def normChained (x s b : Fin 4096 → EReal) (k : Fin 4096) : EReal := ctr x k * rstd x * s k + b k

/-- The two groupings are one row: associativity of the product on the extended reals. -/
theorem normFolded_eq_normChained (x s b : Fin 4096 → EReal) (k : Fin 4096) :
    normFolded x s b k = normChained x s b k := by
  unfold normFolded normChained
  rw [mul_assoc]

/-- One entry of a branch's result: the normalised row against column `j` of the weights, plus the output bias. -/
def proj (x s b : Fin 4096 → EReal) (w : Fin 4096 → Fin 1024 → EReal) (ob : Fin 1024 → EReal) (j : Fin 1024) : EReal :=
  (∑ k : Fin 4096, normFolded x s b k * w k j) + ob j

abbrev T3 : Shape := ⟨3, ![2, 4096, 4096]⟩
abbrev O3 : Shape := ⟨3, ![2, 4096, 1024]⟩
abbrev T2 : Shape := ⟨2, ![8192, 4096]⟩
abbrev O2 : Shape := ⟨2, ![8192, 1024]⟩
abbrev V1 : Shape := ⟨1, ![4096]⟩
abbrev R1 : Shape := ⟨2, ![1, 4096]⟩
abbrev K2 : Shape := ⟨2, ![4096, 1024]⟩
abbrev B1 : Shape := ⟨1, ![1024]⟩
abbrev Q1 : Shape := ⟨2, ![1, 1024]⟩

/-- A branch's result over the [2, 4096, 1024] layout: entry `(a, r, j)` is `proj` of row `(a, r)` of the features. -/
def whole (x : T3.Idx → EReal) (s b : V1.Idx → EReal) (w : K2.Idx → EReal) (ob : B1.Idx → EReal) : O3.Idx → EReal :=
  fun i => proj (fun k => x (ix3 (⟨(i 0).val, (i 0).isLt⟩ : Fin 2) (⟨(i 1).val, (i 1).isLt⟩ : Fin 4096) k))
    (fun k => s (ix1 k)) (fun k => b (ix1 k)) (fun k j => w (ix2 k j)) (fun j => ob (ix1 j)) (⟨(i 2).val, (i 2).isLt⟩ : Fin 1024)

/-- The same over the flattened [8192, 1024] layout, the vectors as one-row matrices. -/
def flat (x : T2.Idx → EReal) (s b : R1.Idx → EReal) (w : K2.Idx → EReal) (ob : Q1.Idx → EReal) : O2.Idx → EReal :=
  fun i => proj (fun k => x (ix2 (⟨(i 0).val, (i 0).isLt⟩ : Fin 8192) k))
    (fun k => s (ix2 (0 : Fin 1) k)) (fun k => b (ix2 (0 : Fin 1) k)) (fun k j => w (ix2 k j)) (fun j => ob (ix2 (0 : Fin 1) j))
    (⟨(i 1).val, (i 1).isLt⟩ : Fin 1024)

end Cert.LnProj

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  What one call of the body stores, entry by entry.

  The body loads a [256, 4096] block of rows, the scale and bias as [1, 4096] rows, the [4096, 1024] weights and the
  output bias as a [1, 1024] row, and stores one [256, 1024] block. Entry (p, q) of the stored block depends on row p
  of the loaded block only: it is the branch's result for that row at column q — the row's mean and variance are lane
  sums over the row, kept as one-column matrices and spread back over the row; the weights' product is the sum over the
  4096 lanes of the normalised row against column q (the accumulator is the zero word, the change to a narrower float
  format is the identity on the extended reals).
-/
import proofs.«149808_j43250320671027_2_alg».proof.Proof.Gen.KernelIdeal.Skeleton
import proofs.«149808_j43250320671027_2_alg».proof.Proof.Spec
import proofs.«149808_j43250320671027_2_alg».proof.Proof.LibKeepdims
import Idealize.ShloMosaic.PureOps.Ideal.Laws
import Idealize.ShloMosaic.Lib.ValueLayout

noncomputable section

namespace Cert.KernelIdeal.Hand

open Cert.KernelIdeal Cert.KernelIdeal.Gen
open Idealize.ShloMosaic Idealize.ShloMosaic.ValueIdx

/-- A vector's reciprocal square root is taken entry by entry. -/
theorem rsqrt_apply {s : Shape} {φ : FTy} (a : FVec Ideal s φ) (i : s.Idx) : rsqrt a i = Ideal.rsqrt (a i) := rfl

/-- A lane sum over axis 1 of a [256, 4096] vector, read at row `p`: the sum of that row's 4096 entries. -/
theorem rowSum_apply (v : FVec Ideal S256x4096 .f32) (hacc : (0x00000000#32 : BitVec 32) = 0x00000000#32) (p : Fin 256) :
    multiReduction .add [1] S256 v 0x00000000#32 reduces_S256x4096_S256 (.inl rfl) hacc (ix1 p) = ∑ k : Fin 4096, v (ix2 p k) :=
  (Ideal.multiReduction_add_single v 0x00000000#32 reduces_S256x4096_S256 (.inl rfl) hacc (ix1 p)).trans
    (Finset.sum_congr rfl fun k _ => congrArg v (funext fun ax => Fin.ext (by
      match ax with
      | ⟨0, _⟩ => rfl
      | ⟨1, _⟩ => rfl)))

/-- The product's left operand is read along the output's row … -/
theorem lhs_row (i : S256x1024.Idx) (z : dot_S256x4096_S4096x1024_S256x1024_1_0_0_1_n_n.contr.Idx) :
    (dot_S256x4096_S4096x1024_S256x1024_1_0_0_1_n_n.lhsIdx i z 0).val = (i 0).val := by
  unfold DotDims.lhsIdx
  rw [dif_neg (show ¬(0 : Fin S256x4096.rank) ∈ dot_S256x4096_S4096x1024_S256x1024_1_0_0_1_n_n.lhsBatch by decide),
    dif_pos (show (0 : Fin S256x4096.rank) ∈ dot_S256x4096_S4096x1024_S256x1024_1_0_0_1_n_n.lhsNonContracting by decide)]
  rfl
/-- … and the right operand down the output's column. -/
theorem rhs_col (i : S256x1024.Idx) (z : dot_S256x4096_S4096x1024_S256x1024_1_0_0_1_n_n.contr.Idx) :
    (dot_S256x4096_S4096x1024_S256x1024_1_0_0_1_n_n.rhsIdx i z 1).val = (i 1).val := by
  unfold DotDims.rhsIdx
  rw [dif_neg (show ¬(1 : Fin S4096x1024.rank) ∈ dot_S256x4096_S4096x1024_S256x1024_1_0_0_1_n_n.rhsBatch by decide),
    dif_pos (show (1 : Fin S4096x1024.rank) ∈ dot_S256x4096_S4096x1024_S256x1024_1_0_0_1_n_n.rhsNonContracting by decide)]
  rfl

/-- The body's matrix product into the zero accumulator, read at (p, q): row `p` of the left operand against column `q`
    of the right one, summed over the 4096 contracted lanes. -/
theorem matmul_rows (l : FVec Ideal S256x4096 .bf16) (r : FVec Ideal S4096x1024 .bf16) (p : Fin 256) (q : Fin 1024) :
    matmul dot_S256x4096_S4096x1024_S256x1024_1_0_0_1_n_n none l r (constant (F := Ideal) S256x1024 .f32 0x00000000#32) (ix2 p q)
      = ∑ k : Fin 4096, l (ix2 p k) * r (ix2 k q) := by
  simp only [matmul]
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p q) ((contrEquiv1 dot_S256x4096_S4096x1024_S256x1024_1_0_0_1_n_n 4096 rfl rfl).symm k) = ix2 p k :=
    funext fun a => Fin.ext (by
      match a with
      | ⟨0, _⟩ => exact lhs_row _ _
      | ⟨1, _⟩ => exact (dot_S256x4096_S4096x1024_S256x1024_1_0_0_1_n_n.lhsIdx_val_of_single rfl (ix2 p q) _).trans hk)
  have er : dot_S256x4096_S4096x1024_S256x1024_1_0_0_1_n_n.rhsIdx (ix2 p q) ((contrEquiv1 dot_S256x4096_S4096x1024_S256x1024_1_0_0_1_n_n 4096 rfl rfl).symm k) = ix2 k q :=
    funext fun a => Fin.ext (by
      match a with
      | ⟨0, _⟩ => exact (dot_S256x4096_S4096x1024_S256x1024_1_0_0_1_n_n.rhsIdx_val_of_single rfl (ix2 p q) _).trans hk
      | ⟨1, _⟩ => exact rhs_col _ _)
  rw [el, er]

/-- ENTRY (p, q) OF THE STORED BLOCK is `LnProj.proj` of row `p` of the loaded rows, at column `q`. -/
theorem pay_apply (x0 : FVec Ideal S256x4096 .f32) (x1 x2 : FVec Ideal S1x4096 .f32) (x3 : FVec Ideal S4096x1024 .bf16) (x4 : FVec Ideal S1x1024 .f32)
    (p : Fin 256) (q : Fin 1024) :
    k0_pay1 (F := Ideal) x0 x1 x2 x3 x4 (ix2 p q)
      = Cert.LnProj.proj (fun k => x0 (ix2 p k)) (fun k => x1 (ix2 (0 : Fin 1) k)) (fun k => x2 (ix2 (0 : Fin 1) k)) (fun k j => x3 (ix2 k j)) (fun j => x4 (ix2 (0 : Fin 1) j)) q := by
  unfold k0_pay1
  simp only [addf_apply, matmul_rows, truncf_apply, mulf_apply, subf_apply, divf_apply, rsqrt_apply, broadcast_apply,
    shapeCast_self, broadcastTo_a1_ab_apply, broadcastTo_1b_ab_apply, shapeCast_a_a1_apply, rowSum_apply]
  rw [rowSum_apply, rowSum_apply]
  simp only [addf_apply, truncf_apply, mulf_apply, subf_apply, divf_apply, rsqrt_apply, broadcast_apply,
    shapeCast_self, broadcastTo_a1_ab_apply, broadcastTo_1b_ab_apply, shapeCast_a_a1_apply]
  rw [rowSum_apply]
  rfl

/-- The second call runs the same body: its stored value is the same function of its loads. -/
theorem pay_second {F : FTy → Type} [FloatOps F] : @k1_pay1 F _ = @k0_pay1 F _ := rfl

end Cert.KernelIdeal.Hand
end
-- ==== Proof.FirstCall.lean ====
/-
  The array a call leaves behind, as one function of the arrays it found.

  The call runs the body at 32 grid points. At point t the rows' window holds rows 256·t … 256·t + 255 of the
  [8192, 4096] array, the scale, bias, weights and output bias windows hold their whole arrays at every point, and the
  output window's block is rows 256·t … 256·t + 255 of the [8192, 1024] result. So what point t writes back is exactly
  the restriction to those rows of ONE whole-array function — entry (r, j) is the branch's result for row r at column
  j — and since the 32 blocks of 256 rows cover all 8192 rows (row r lies in block r / 256), the result array after the
  call is that function, whatever the arrays held when the call was entered.
-/
import proofs.«149808_j43250320671027_2_alg».proof.Proof.Gen.KernelIdeal.Frame
import proofs.«149808_j43250320671027_2_alg».proof.Proof.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Every access of the body starts at the corner of its buffer. -/
theorem zero_offsets : (![0, 0] : Fin 2 → Nat) = fun _ => 0 := funext fun a => by fin_cases a <;> rfl

/-- The block each window is on at point `t`, decided over the 32 points: the rows' and the result's move with `t`,
    the others stay at block (0, 0). -/
theorem blocks_first : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- WHAT POINT `t` WRITES BACK is block `t` of the whole-array function of the arrays as the call found them. -/
theorem flushed_first (c : Dev nD) (t : Fin cfg0.N) :
    (dat0 V c).flushed 5 t = ((cfg0.win 5).blk t).view.read (Elt Ideal)
      (Cert.LnProj.flat (V c main_v0) (V c main_v2) (V c main_v3) (V c main_v1) (V c main_v4)) := by
  show (cfg0.win 5).cut (grid0.coords t) ((dat0 V c).after 5 t) = _
  rw [after0_5]
  unfold out0_5
  rw [View.canon_unit_zero zero_offsets]
  simp only [View.ld_unit_zero (S := S256x4096) zero_offsets, View.ld_unit_zero (S := S1x4096) zero_offsets,
    View.ld_unit_zero (S := S4096x1024) zero_offsets, View.ld_unit_zero (S := S1x1024) zero_offsets]
  funext j
  obtain ⟨p, q, rfl⟩ : ∃ (p : Fin 256) (q : Fin 1024), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
     = Cert.LnProj.flat (V c main_v0) (V c main_v2) (V c main_v3) (V c main_v1) (V c main_v4) (((cfg0.win 5).blk t).view.emb (ix2 p q))
  refine (pay_apply _ _ _ _ _ p q).trans ?_
  unfold Cert.LnProj.flat
  obtain ⟨e00, e01, e10, e11, e20, e21, e30, e31, e40, e41, e50, e51⟩ := blocks_first t
  have hrow : ∀ k : Fin 4096, (iblk0 V c 0 t : S256x4096.Idx → EReal) (ix2 p k)
      = (V c main_v0 : S8192x4096.Idx → EReal) (ix2 (⟨((((cfg0.win 5).blk t).view.emb (ix2 p q)) 0).val, ((((cfg0.win 5).blk t).view.emb (ix2 p q)) 0).isLt⟩ : Fin 8192) k) := by
    intro k
    show (V c main_v0 : S8192x4096.Idx → EReal) (((cfg0.win 0).blk t).view.emb (ix2 p k)) = _
    refine congrArg _ (funext fun a => Fin.ext ?_)
    match a with
    | ⟨0, _⟩ => show win0_0.index t (0 : Fin 2) * 256 + 1 * p.val = win0_5.index t (0 : Fin 2) * 256 + 1 * p.val; rw [e00, e50]
    | ⟨1, _⟩ => show win0_0.index t (1 : Fin 2) * 4096 + 1 * k.val = k.val; rw [e01]; omega
  have hs : ∀ k : Fin 4096, (iblk0 V c 1 t : S1x4096.Idx → EReal) (ix2 (0 : Fin 1) k) = (V c main_v2 : S1x4096.Idx → EReal) (ix2 (0 : Fin 1) k) := by
    intro k
    show (V c main_v2 : S1x4096.Idx → EReal) (((cfg0.win 1).blk t).view.emb (ix2 (0 : Fin 1) k)) = _
    refine congrArg _ (funext fun a => Fin.ext ?_)
    match a with
    | ⟨0, _⟩ => show win0_1.index t (0 : Fin 2) * 1 + 1 * 0 = 0; rw [e10]
    | ⟨1, _⟩ => show win0_1.index t (1 : Fin 2) * 4096 + 1 * k.val = k.val; rw [e11]; omega
  have hb : ∀ k : Fin 4096, (iblk0 V c 2 t : S1x4096.Idx → EReal) (ix2 (0 : Fin 1) k) = (V c main_v3 : S1x4096.Idx → EReal) (ix2 (0 : Fin 1) k) := by
    intro k
    show (V c main_v3 : S1x4096.Idx → EReal) (((cfg0.win 2).blk t).view.emb (ix2 (0 : Fin 1) k)) = _
    refine congrArg _ (funext fun a => Fin.ext ?_)
    match a with
    | ⟨0, _⟩ => show win0_2.index t (0 : Fin 2) * 1 + 1 * 0 = 0; rw [e20]
    | ⟨1, _⟩ => show win0_2.index t (1 : Fin 2) * 4096 + 1 * k.val = k.val; rw [e21]; omega
  have hw : ∀ (k : Fin 4096) (j : Fin 1024), (iblk0 V c 3 t : S4096x1024.Idx → EReal) (ix2 k j) = (V c main_v1 : S4096x1024.Idx → EReal) (ix2 k j) := by
    intro k j
    show (V c main_v1 : S4096x1024.Idx → EReal) (((cfg0.win 3).blk t).view.emb (ix2 k j)) = _
    refine congrArg _ (funext fun a => Fin.ext ?_)
    match a with
    | ⟨0, _⟩ => show win0_3.index t (0 : Fin 2) * 4096 + 1 * k.val = k.val; rw [e30]; omega
    | ⟨1, _⟩ => show win0_3.index t (1 : Fin 2) * 1024 + 1 * j.val = j.val; rw [e31]; omega
  have hob : ∀ j : Fin 1024, (iblk0 V c 4 t : S1x1024.Idx → EReal) (ix2 (0 : Fin 1) j) = (V c main_v4 : S1x1024.Idx → EReal) (ix2 (0 : Fin 1) j) := by
    intro j
    show (V c main_v4 : S1x1024.Idx → EReal) (((cfg0.win 4).blk t).view.emb (ix2 (0 : Fin 1) j)) = _
    refine congrArg _ (funext fun a => Fin.ext ?_)
    match a with
    | ⟨0, _⟩ => show win0_4.index t (0 : Fin 2) * 1 + 1 * 0 = 0; rw [e40]
    | ⟨1, _⟩ => show win0_4.index t (1 : Fin 2) * 1024 + 1 * j.val = j.val; rw [e41]; omega
  have hq : (⟨((((cfg0.win 5).blk t).view.emb (ix2 p q)) 1).val, ((((cfg0.win 5).blk t).view.emb (ix2 p q)) 1).isLt⟩ : Fin 1024) = q :=
    Fin.ext (show win0_5.index t (1 : Fin 2) * 1024 + 1 * q.val = q.val by rw [e51]; omega)
  rw [funext hrow, funext hs, funext hb, funext fun k => funext (hw k), funext hob, hq]

/-- An index of the result lies in point `t`'s block iff each coordinate is within the block's range on its axis. -/
theorem mem_block_first (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5).slice (win0_5.rect t)).set ↔ _
  rw [View.set_slice_whole, Rect.mem_set_unit]
  exact Iff.rfl

/-- THE RESULT ARRAY after the call: the 32 blocks cover it, row `r` by point `r / 256`. -/
theorem array_first (c : Dev nD) :
    (dat0 V c).arrAt 5 cfg0.N = Cert.LnProj.flat (V c main_v0) (V c main_v2) (V c main_v3) (V c main_v1) (V c main_v4) :=
  (dat0 V c).arrAt_eq_of_cover 5 _ (fun t _ => flushed_first V c t) (fun i => by
    have hi0 : ((i : S8192x1024.Idx) 0).val < 8192 := (i 0).isLt
    have hi1 : ((i : S8192x1024.Idx) 1).val < 1024 := (i 1).isLt
    have hlt : ((i : S8192x1024.Idx) 0).val / 256 < cfg0.N := by
      show _ < grid0.N
      rw [N_0]; omega
    refine ⟨⟨((i : S8192x1024.Idx) 0).val / 256, hlt⟩, flush0_5 _, ?_⟩
    rw [mem_block_first]
    obtain ⟨-, -, -, -, -, -, -, -, -, -, e50, e51⟩ := blocks_first ⟨((i : S8192x1024.Idx) 0).val / 256, hlt⟩
    intro a
    match a with
    | ⟨0, _⟩ =>
      show win0_5.index _ (0 : Fin 2) * 256 ≤ ((i : S8192x1024.Idx) 0).val ∧ ((i : S8192x1024.Idx) 0).val < win0_5.index _ (0 : Fin 2) * 256 + 256
      rw [e50]
      show ((i : S8192x1024.Idx) 0).val / 256 * 256 ≤ _ ∧ _ < ((i : S8192x1024.Idx) 0).val / 256 * 256 + 256
      omega
    | ⟨1, _⟩ =>
      show win0_5.index _ (1 : Fin 2) * 1024 ≤ ((i : S8192x1024.Idx) 1).val ∧ ((i : S8192x1024.Idx) 1).val < win0_5.index _ (1 : Fin 2) * 1024 + 1024
      rw [e51]
      omega)

end Cert.KernelIdeal.Hand
end
-- ==== Proof.SecondCall.lean ====
/-
  The same for the second call: the array it leaves behind, as one function of the arrays it found.
  (The second call runs the same body on the second branch's operands; its grid, windows and blocks are the first's.)

  The call runs the body at 32 grid points. At point t the rows' window holds rows 256·t … 256·t + 255 of the
  [8192, 4096] array, the scale, bias, weights and output bias windows hold their whole arrays at every point, and the
  output window's block is rows 256·t … 256·t + 255 of the [8192, 1024] result. So what point t writes back is exactly
  the restriction to those rows of ONE whole-array function — entry (r, j) is the branch's result for row r at column
  j — and since the 32 blocks of 256 rows cover all 8192 rows (row r lies in block r / 256), the result array after the
  call is that function, whatever the arrays held when the call was entered.
-/
import proofs.«149808_j43250320671027_2_alg».proof.Proof.Gen.KernelIdeal.Frame
import proofs.«149808_j43250320671027_2_alg».proof.Proof.Payload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Every access of the body starts at the corner of its buffer. -/
theorem zero_offsets' : (![0, 0] : Fin 2 → Nat) = fun _ => 0 := funext fun a => by fin_cases a <;> rfl

/-- The block each window is on at point `t`, decided over the 32 points: the rows' and the result's move with `t`,
    the others stay at block (0, 0). -/
theorem blocks_second : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- WHAT POINT `t` WRITES BACK is block `t` of the whole-array function of the arrays as the call found them. -/
theorem flushed_second (c : Dev nD) (t : Fin cfg1.N) :
    (dat1 V c).flushed 5 t = ((cfg1.win 5).blk t).view.read (Elt Ideal)
      (Cert.LnProj.flat (V c main_v7) (V c main_v9) (V c main_v10) (V c main_v8) (V c main_v11)) := by
  show (cfg1.win 5).cut (grid1.coords t) ((dat1 V c).after 5 t) = _
  rw [after1_5]
  unfold out1_5
  rw [View.canon_unit_zero zero_offsets']
  simp only [View.ld_unit_zero (S := S256x4096) zero_offsets', View.ld_unit_zero (S := S1x4096) zero_offsets',
    View.ld_unit_zero (S := S4096x1024) zero_offsets', View.ld_unit_zero (S := S1x1024) zero_offsets']
  funext j
  obtain ⟨p, q, rfl⟩ : ∃ (p : Fin 256) (q : Fin 1024), j = ix2 p q := ⟨j 0, j 1, eq_ix2 j⟩
  show k0_pay1 (F := Ideal) (iblk1 V c 0 t) (iblk1 V c 1 t) (iblk1 V c 2 t) (iblk1 V c 3 t) (iblk1 V c 4 t) (ix2 p q)
     = Cert.LnProj.flat (V c main_v7) (V c main_v9) (V c main_v10) (V c main_v8) (V c main_v11) (((cfg1.win 5).blk t).view.emb (ix2 p q))
  refine (pay_apply _ _ _ _ _ p q).trans ?_
  unfold Cert.LnProj.flat
  obtain ⟨e00, e01, e10, e11, e20, e21, e30, e31, e40, e41, e50, e51⟩ := blocks_second t
  have hrow : ∀ k : Fin 4096, (iblk1 V c 0 t : S256x4096.Idx → EReal) (ix2 p k)
      = (V c main_v7 : S8192x4096.Idx → EReal) (ix2 (⟨((((cfg1.win 5).blk t).view.emb (ix2 p q)) 0).val, ((((cfg1.win 5).blk t).view.emb (ix2 p q)) 0).isLt⟩ : Fin 8192) k) := by
    intro k
    show (V c main_v7 : S8192x4096.Idx → EReal) (((cfg1.win 0).blk t).view.emb (ix2 p k)) = _
    refine congrArg _ (funext fun a => Fin.ext ?_)
    match a with
    | ⟨0, _⟩ => show win1_0.index t (0 : Fin 2) * 256 + 1 * p.val = win1_5.index t (0 : Fin 2) * 256 + 1 * p.val; rw [e00, e50]
    | ⟨1, _⟩ => show win1_0.index t (1 : Fin 2) * 4096 + 1 * k.val = k.val; rw [e01]; omega
  have hs : ∀ k : Fin 4096, (iblk1 V c 1 t : S1x4096.Idx → EReal) (ix2 (0 : Fin 1) k) = (V c main_v9 : S1x4096.Idx → EReal) (ix2 (0 : Fin 1) k) := by
    intro k
    show (V c main_v9 : S1x4096.Idx → EReal) (((cfg1.win 1).blk t).view.emb (ix2 (0 : Fin 1) k)) = _
    refine congrArg _ (funext fun a => Fin.ext ?_)
    match a with
    | ⟨0, _⟩ => show win1_1.index t (0 : Fin 2) * 1 + 1 * 0 = 0; rw [e10]
    | ⟨1, _⟩ => show win1_1.index t (1 : Fin 2) * 4096 + 1 * k.val = k.val; rw [e11]; omega
  have hb : ∀ k : Fin 4096, (iblk1 V c 2 t : S1x4096.Idx → EReal) (ix2 (0 : Fin 1) k) = (V c main_v10 : S1x4096.Idx → EReal) (ix2 (0 : Fin 1) k) := by
    intro k
    show (V c main_v10 : S1x4096.Idx → EReal) (((cfg1.win 2).blk t).view.emb (ix2 (0 : Fin 1) k)) = _
    refine congrArg _ (funext fun a => Fin.ext ?_)
    match a with
    | ⟨0, _⟩ => show win1_2.index t (0 : Fin 2) * 1 + 1 * 0 = 0; rw [e20]
    | ⟨1, _⟩ => show win1_2.index t (1 : Fin 2) * 4096 + 1 * k.val = k.val; rw [e21]; omega
  have hw : ∀ (k : Fin 4096) (j : Fin 1024), (iblk1 V c 3 t : S4096x1024.Idx → EReal) (ix2 k j) = (V c main_v8 : S4096x1024.Idx → EReal) (ix2 k j) := by
    intro k j
    show (V c main_v8 : S4096x1024.Idx → EReal) (((cfg1.win 3).blk t).view.emb (ix2 k j)) = _
    refine congrArg _ (funext fun a => Fin.ext ?_)
    match a with
    | ⟨0, _⟩ => show win1_3.index t (0 : Fin 2) * 4096 + 1 * k.val = k.val; rw [e30]; omega
    | ⟨1, _⟩ => show win1_3.index t (1 : Fin 2) * 1024 + 1 * j.val = j.val; rw [e31]; omega
  have hob : ∀ j : Fin 1024, (iblk1 V c 4 t : S1x1024.Idx → EReal) (ix2 (0 : Fin 1) j) = (V c main_v11 : S1x1024.Idx → EReal) (ix2 (0 : Fin 1) j) := by
    intro j
    show (V c main_v11 : S1x1024.Idx → EReal) (((cfg1.win 4).blk t).view.emb (ix2 (0 : Fin 1) j)) = _
    refine congrArg _ (funext fun a => Fin.ext ?_)
    match a with
    | ⟨0, _⟩ => show win1_4.index t (0 : Fin 2) * 1 + 1 * 0 = 0; rw [e40]
    | ⟨1, _⟩ => show win1_4.index t (1 : Fin 2) * 1024 + 1 * j.val = j.val; rw [e41]; omega
  have hq : (⟨((((cfg1.win 5).blk t).view.emb (ix2 p q)) 1).val, ((((cfg1.win 5).blk t).view.emb (ix2 p q)) 1).isLt⟩ : Fin 1024) = q :=
    Fin.ext (show win1_5.index t (1 : Fin 2) * 1024 + 1 * q.val = q.val by rw [e51]; omega)
  rw [funext hrow, funext hs, funext hb, funext fun k => funext (hw k), funext hob, hq]

/-- An index of the result lies in point `t`'s block iff each coordinate is within the block's range on its axis. -/
theorem mem_block_second (t : Fin cfg1.N) (i : S8192x1024.Idx) :
    i ∈ ((cfg1.win 5).blk t).view.set ↔ ∀ a : Fin 2, win1_5.index t a * S256x1024.size a ≤ (i a).val ∧ (i a).val < win1_5.index t a * S256x1024.size a + S256x1024.size a := by
  show i ∈ ((View.whole main_v12).slice (win1_5.rect t)).set ↔ _
  rw [View.set_slice_whole, Rect.mem_set_unit]
  exact Iff.rfl

/-- THE RESULT ARRAY after the call: the 32 blocks cover it, row `r` by point `r / 256`. -/
theorem array_second (c : Dev nD) :
    (dat1 V c).arrAt 5 cfg1.N = Cert.LnProj.flat (V c main_v7) (V c main_v9) (V c main_v10) (V c main_v8) (V c main_v11) :=
  (dat1 V c).arrAt_eq_of_cover 5 _ (fun t _ => flushed_second V c t) (fun i => by
    have hi0 : ((i : S8192x1024.Idx) 0).val < 8192 := (i 0).isLt
    have hi1 : ((i : S8192x1024.Idx) 1).val < 1024 := (i 1).isLt
    have hlt : ((i : S8192x1024.Idx) 0).val / 256 < cfg1.N := by
      show _ < grid1.N
      rw [N_1]; omega
    refine ⟨⟨((i : S8192x1024.Idx) 0).val / 256, hlt⟩, flush1_5 _, ?_⟩
    rw [mem_block_second]
    obtain ⟨-, -, -, -, -, -, -, -, -, -, e50, e51⟩ := blocks_second ⟨((i : S8192x1024.Idx) 0).val / 256, hlt⟩
    intro a
    match a with
    | ⟨0, _⟩ =>
      show win1_5.index _ (0 : Fin 2) * 256 ≤ ((i : S8192x1024.Idx) 0).val ∧ ((i : S8192x1024.Idx) 0).val < win1_5.index _ (0 : Fin 2) * 256 + 256
      rw [e50]
      show ((i : S8192x1024.Idx) 0).val / 256 * 256 ≤ _ ∧ _ < ((i : S8192x1024.Idx) 0).val / 256 * 256 + 256
      omega
    | ⟨1, _⟩ =>
      show win1_5.index _ (1 : Fin 2) * 1024 ≤ ((i : S8192x1024.Idx) 1).val ∧ ((i : S8192x1024.Idx) 1).val < win1_5.index _ (1 : Fin 2) * 1024 + 1024
      rw [e51]
      omega)

end Cert.KernelIdeal.Hand
end
-- ==== Proof.Relayout.lean ====
/-
  Re-laying the flattened form of a branch's result gives the form over [2, 4096, 1024].

  In row-major order entry (a, r, j) of a [2, 4096, n] array is entry (4096·a + r, j) of the [8192, n] array with the
  same data, and a vector is the one row of its [1, n] matrix. The branch's result at a row depends on that row of the
  features only, so computing it over the flattened features, scale, bias and output bias and re-laying the [8192, 1024]
  result as [2, 4096, 1024] is computing it over the original arrays directly.
-/
import proofs.«149808_j43250320671027_2_alg».proof.Proof.Spec
import Idealize.ShloMosaic.Lib.ValueLayout

noncomputable section

namespace Cert.LnProj

open Idealize.ShloMosaic Idealize.ShloMosaic.ValueIdx

/-- Row `4096·a + r` of the flattened features is row `(a, r)` of the features. -/
theorem rows_relaid (x : T3.Idx → EReal) (h : T3.ShapeCasts T2) (a : Fin 2) (r : Fin 4096) (R : Fin 8192)
    (hR : R.val = a.val * 4096 + r.val) (k : Fin 4096) :
    shapeCast T2 x h (ix2 R k) = x (ix3 a r k) :=
  shapeCast_apply x h _ _ (by
    rw [Shape.rowMajor_val_two, Shape.rowMajor_val_three]
    show (a.val * 4096 + r.val) * 4096 + k.val = R.val * 4096 + k.val
    rw [hR])

theorem flat_relaid (x : T3.Idx → EReal) (s b : V1.Idx → EReal) (w : K2.Idx → EReal) (ob : B1.Idx → EReal)
    (h3 : T3.ShapeCasts T2) (hr : V1.ShapeCasts R1) (hq : B1.ShapeCasts Q1) (ho : O2.ShapeCasts O3) :
    shapeCast O3 (flat (shapeCast T2 x h3) (shapeCast R1 s hr) (shapeCast R1 b hr) w (shapeCast Q1 ob hq)) ho
      = whole x s b w ob := by
  funext i
  obtain ⟨a, r, j, rfl⟩ : ∃ (a : Fin 2) (r : Fin 4096) (j : Fin 1024), i = ix3 a r j := ⟨i 0, i 1, i 2, eq_ix3 i⟩
  have hlt : a.val * 4096 + r.val < 8192 := by have := a.isLt; have := r.isLt; omega
  refine (shapeCast_apply _ ho (ix3 a r j) (ix2 (⟨a.val * 4096 + r.val, hlt⟩ : Fin 8192) j) (by
    rw [Shape.rowMajor_val_two, Shape.rowMajor_val_three]
    show (a.val * 4096 + r.val) * 1024 + j.val = (a.val * 4096 + r.val) * 1024 + j.val
    rfl)).trans ?_
  unfold flat whole
  have e1 : ∀ k : Fin 4096, shapeCast T2 x h3 (ix2 (⟨a.val * 4096 + r.val, hlt⟩ : Fin 8192) k) = x (ix3 a r k) :=
    fun k => rows_relaid x h3 a r _ rfl k
  have e2 : ∀ k : Fin 4096, shapeCast R1 s hr (ix2 (0 : Fin 1) k) = s (ix1 k) := fun k => shapeCast_a_1a_apply s hr 0 k
  have e3 : ∀ k : Fin 4096, shapeCast R1 b hr (ix2 (0 : Fin 1) k) = b (ix1 k) := fun k => shapeCast_a_1a_apply b hr 0 k
  have e4 : ∀ j : Fin 1024, shapeCast Q1 ob hq (ix2 (0 : Fin 1) j) = ob (ix1 j) := fun j => shapeCast_a_1a_apply ob hq 0 j
  show proj (fun k => shapeCast T2 x h3 (ix2 (⟨a.val * 4096 + r.val, hlt⟩ : Fin 8192) k)) (fun k => shapeCast R1 s hr (ix2 (0 : Fin 1) k))
      (fun k => shapeCast R1 b hr (ix2 (0 : Fin 1) k)) (fun k j => w (ix2 k j)) (fun j => shapeCast Q1 ob hq (ix2 (0 : Fin 1) j)) j
    = proj (fun k => x (ix3 a r k)) (fun k => s (ix1 k)) (fun k => b (ix1 k)) (fun k j => w (ix2 k j)) (fun j => ob (ix1 j)) j
  rw [funext e1, funext e2, funext e3, funext e4]

end Cert.LnProj

end
-- ==== Proof.KernelValue.lean ====
/-
  The two results of the program as functions of its ten arguments.

  Before the first call the host re-lays the first features as [8192, 4096], the scale, bias and output bias as
  one-row matrices, and changes the weights' float format (the identity on the extended reals); the call leaves the
  flattened branch result, which the host re-lays as [2, 4096, 1024]. The second branch goes the same way on the other
  five arguments, which nothing before it has written. Folding the buffer contents through the program therefore ends
  with each result buffer at the branch's result, entry (a, r, j) a function of row (a, r) of that branch's features —
  and, by the run read back in full, so does every execution.
-/
import proofs.«149808_j43250320671027_2_alg».proof.Proof.KernelRun
import proofs.«149808_j43250320671027_2_alg».proof.Proof.FirstCall
import proofs.«149808_j43250320671027_2_alg».proof.Proof.SecondCall
import proofs.«149808_j43250320671027_2_alg».proof.Proof.Relayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the first call finds -/

theorem rows_first (c : Dev nD) : (V1 m ρ c main_v0 : S8192x4096.Idx → EReal)
    = shapeCast S8192x4096 (m ((c : Thread nD τ).loc main_arg0)) shapeCasts_S2x4096x4096_S8192x4096 := by
  dsimp only [V1, W1]; after_results; rfl
theorem scale_first (c : Dev nD) : (V1 m ρ c main_v2 : S1x4096.Idx → EReal)
    = shapeCast S1x4096 (m ((c : Thread nD τ).loc main_arg2)) shapeCasts_S4096_S1x4096 := by
  dsimp only [V1, W1]; after_results; rfl
theorem bias_first (c : Dev nD) : (V1 m ρ c main_v3 : S1x4096.Idx → EReal)
    = shapeCast S1x4096 (m ((c : Thread nD τ).loc main_arg3)) shapeCasts_S4096_S1x4096 := by
  dsimp only [V1, W1]; after_results; rfl
theorem weights_first (c : Dev nD) : (V1 m ρ c main_v1 : S4096x1024.Idx → EReal)
    = (m ((c : Thread nD τ).loc main_arg4) : S4096x1024.Idx → EReal) := by
  dsimp only [V1, W1]; after_results; rfl
theorem obias_first (c : Dev nD) : (V1 m ρ c main_v4 : S1x1024.Idx → EReal)
    = shapeCast S1x1024 (m ((c : Thread nD τ).loc main_arg5)) shapeCasts_S1024_S1x1024 := by
  dsimp only [V1, W1]; after_results; rfl

/-- The first result buffer at the end: the first call's array, re-laid. -/
theorem result_first (c : Dev nD) : (W5 m ρ c (Proc.devRef .tc main_v6) : S2x4096x1024.Idx → EReal)
    = shapeCast S2x4096x1024 (W2 m ρ c (Proc.devRef .tc main_v5) : S8192x1024.Idx → EReal) shapeCasts_S8192x1024_S2x4096x1024 := by
  dsimp only [W5]; after_results
  rw [W4_of_ne m ρ c main_v6 (by decide)]
  show StableHlo.after hostOps1 (W2 m ρ c) (Proc.devRef .tc main_v6) = _
  after_results
  rfl

/-- THE FIRST RESULT is the branch's result of the first five arguments it reads. -/
theorem value_first (c : Dev nD) : (W5 m ρ c (Proc.devRef .tc main_v6) : S2x4096x1024.Idx → EReal)
    = Cert.LnProj.whole (m ((c : Thread nD τ).loc main_arg0)) (m ((c : Thread nD τ).loc main_arg2)) (m ((c : Thread nD τ).loc main_arg3))
        (m ((c : Thread nD τ).loc main_arg4)) (m ((c : Thread nD τ).loc main_arg5)) := by
  rw [result_first, show W2 m ρ c (Proc.devRef .tc main_v5) = _ from W2_arr m ρ c 5, array_first (V1 m ρ) c,
    rows_first, scale_first, bias_first, weights_first, obias_first]
  exact Cert.LnProj.flat_relaid _ _ _ _ _ _ _ _ _

/-! ## What the second call finds: the first call and the host lines before it write none of the second branch's arguments -/

theorem arg1_kept (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results
theorem arg6_kept (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results
theorem arg7_kept (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results
theorem arg8_kept (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results
theorem arg9_kept (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results

theorem rows_second (c : Dev nD) : (V3 m ρ c main_v7 : S8192x4096.Idx → EReal)
    = shapeCast S8192x4096 (m ((c : Thread nD τ).loc main_arg1)) shapeCasts_S2x4096x4096_S8192x4096 := by
  dsimp only [V3, W3]; after_results; rw [arg1_kept]; rfl
theorem scale_second (c : Dev nD) : (V3 m ρ c main_v9 : S1x4096.Idx → EReal)
    = shapeCast S1x4096 (m ((c : Thread nD τ).loc main_arg6)) shapeCasts_S4096_S1x4096 := by
  dsimp only [V3, W3]; after_results; rw [arg6_kept]; rfl
theorem bias_second (c : Dev nD) : (V3 m ρ c main_v10 : S1x4096.Idx → EReal)
    = shapeCast S1x4096 (m ((c : Thread nD τ).loc main_arg7)) shapeCasts_S4096_S1x4096 := by
  dsimp only [V3, W3]; after_results; rw [arg7_kept]; rfl
theorem weights_second (c : Dev nD) : (V3 m ρ c main_v8 : S4096x1024.Idx → EReal)
    = (m ((c : Thread nD τ).loc main_arg8) : S4096x1024.Idx → EReal) := by
  dsimp only [V3, W3]; after_results; rw [arg8_kept]; rfl
theorem obias_second (c : Dev nD) : (V3 m ρ c main_v11 : S1x1024.Idx → EReal)
    = shapeCast S1x1024 (m ((c : Thread nD τ).loc main_arg9)) shapeCasts_S1024_S1x1024 := by
  dsimp only [V3, W3]; after_results; rw [arg9_kept]; rfl

/-- The second result buffer at the end: the second call's array, re-laid. -/
theorem result_second (c : Dev nD) : (W5 m ρ c (Proc.devRef .tc main_v13) : S2x4096x1024.Idx → EReal)
    = shapeCast S2x4096x1024 (W4 m ρ c (Proc.devRef .tc main_v12) : S8192x1024.Idx → EReal) shapeCasts_S8192x1024_S2x4096x1024 := by
  dsimp only [W5]; after_results; rfl

/-- THE SECOND RESULT is the branch's result of the other five arguments. -/
theorem value_second (c : Dev nD) : (W5 m ρ c (Proc.devRef .tc main_v13) : S2x4096x1024.Idx → EReal)
    = Cert.LnProj.whole (m ((c : Thread nD τ).loc main_arg1)) (m ((c : Thread nD τ).loc main_arg6)) (m ((c : Thread nD τ).loc main_arg7))
        (m ((c : Thread nD τ).loc main_arg8)) (m ((c : Thread nD τ).loc main_arg9)) := by
  rw [result_second, show W4 m ρ c (Proc.devRef .tc main_v12) = _ from W4_arr m ρ c 5, array_second (V3 m ρ) c,
    rows_second, scale_second, bias_second, weights_second, obias_second]
  exact Cert.LnProj.flat_relaid _ _ _ _ _ _ _ _ _

/-! ## The run -/

/-- THE PROGRAM'S RUN: every weakly fair execution terminates without a fault; each result buffer ends at its branch's
    result of the arguments as launched, and the ten arguments end unchanged. -/
theorem run : θ_run defs (onTc (τ := τ) (main (F := Ideal))) ⟨m, fun _ => 0, ρ⟩ (fun r => ∀ c : Dev nD,
      r.2.mem ((c.tc : Thread nD τ).loc main_v6) = Cert.LnProj.whole (m ((c : Thread nD τ).loc main_arg0)) (m ((c : Thread nD τ).loc main_arg2))
          (m ((c : Thread nD τ).loc main_arg3)) (m ((c : Thread nD τ).loc main_arg4)) (m ((c : Thread nD τ).loc main_arg5))
      ∧ r.2.mem ((c.tc : Thread nD τ).loc main_v13) = Cert.LnProj.whole (m ((c : Thread nD τ).loc main_arg1)) (m ((c : Thread nD τ).loc main_arg6))
          (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_read m ρ (fun s h c =>
    ⟨(h c _ (mem_uc main_v6 (by decide))).trans (value_first m ρ c),
     (h c _ (mem_uc main_v13 (by decide))).trans (value_second m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩)

end Cert.KernelIdeal.Hand
end
-- ==== Proof.RefValue.lean ====
/-
  The reference, read entry by entry.

  The reference computes each branch on the [2, 4096, 4096] features directly: the row sums over the last axis (from the
  zero word), the quotients by the width, the centred entries, the reciprocal root of the variance plus the small
  constant, the product with the scale taken left to right, the bias, the contraction of the last axis against the
  weights' first, the output bias. Read at entry (a, r, j), every layout step of it lands on row (a, r) of the features,
  lane k of the scale and bias, entry (k, j) of the weights and lane j of the output bias; so the reference's result is
  the branch's result written with the left-to-right product, which is the folded one by associativity.
  The second branch is the same expression on the other five arguments.
-/
import proofs.«149808_j43250320671027_2_alg».proof.Proof.Gen.ReferenceIdeal.Read
import proofs.«149808_j43250320671027_2_alg».proof.Proof.Spec

noncomputable section

namespace Cert.ReferenceIdeal.Hand

open Cert.ReferenceIdeal Cert.ReferenceIdeal.Gen Cert.ReferenceIdeal.Read
open Idealize.ShloMosaic Idealize.ShloMosaic.ValueIdx

section indices
variable (a : Fin 2) (r : Fin 4096) (j : Fin 1024) (x k : Fin 4096)

/-- The contraction reads row (a, r) of its left operand at lane `x` … -/
theorem lhs_row : lidx_main_v24 (ix3 a r j) x = ix3 a r x :=
  funext fun d => Fin.ext (by match d with | ⟨0, _⟩ => rfl | ⟨1, _⟩ => rfl | ⟨2, _⟩ => rfl)
/-- … against entry (x, j) of the weights. -/
theorem rhs_col : ridx_main_v24 (ix3 a r j) x = ix2 x j :=
  funext fun d => Fin.ext (by match d with | ⟨0, _⟩ => rfl | ⟨1, _⟩ => rfl)
/-- Spreading the mean back over the features and reading lane `k` of the summed row lands on entry (a, r, k). -/
theorem mean_row : idx_main_v0 (idx_main_v1 (idx_main_v11 (ix3 a r x))) k = ix3 a r k :=
  funext fun d => Fin.ext (by match d with | ⟨0, _⟩ => rfl | ⟨1, _⟩ => rfl | ⟨2, _⟩ => rfl)
/-- The same through the other copy of the spread. -/
theorem mean_row' : idx_main_v0 (idx_main_v1 (idx_main_v4 (ix3 a r x))) k = ix3 a r k :=
  funext fun d => Fin.ext (by match d with | ⟨0, _⟩ => rfl | ⟨1, _⟩ => rfl | ⟨2, _⟩ => rfl)
/-- Likewise for the variance's sum. -/
theorem var_row : idx_main_v7 (idx_main_v8 (idx_main_v16 (ix3 a r x))) k = ix3 a r k :=
  funext fun d => Fin.ext (by match d with | ⟨0, _⟩ => rfl | ⟨1, _⟩ => rfl | ⟨2, _⟩ => rfl)
/-- The scale, bias and output bias are spread along the leading axes: entry (a, r, x) reads lane `x`. -/
theorem scale_at : idx_main_v18 (idx_main_v19 (ix3 a r x)) = ix1 x :=
  funext fun d => Fin.ext (by match d with | ⟨0, _⟩ => rfl)
theorem bias_at : idx_main_v21 (idx_main_v22 (ix3 a r x)) = ix1 x :=
  funext fun d => Fin.ext (by match d with | ⟨0, _⟩ => rfl)
theorem obias_at : idx_main_v25 (idx_main_v26 (ix3 a r j)) = ix1 j :=
  funext fun d => Fin.ext (by match d with | ⟨0, _⟩ => rfl)

end indices

/-- THE REFERENCE'S FIRST RESULT, as a function of the five arguments it reads, is the branch's result. -/
theorem ref_first (x0 : S2x4096x4096.Idx → EReal) (x2 x3 : S4096.Idx → EReal) (x4 : S4096x1024.Idx → EReal) (x5 : S1024.Idx → EReal) :
    val_main_v27 (F := Ideal) x0 x2 x3 x4 x5 = Cert.LnProj.whole x0 x2 x3 x4 x5 := by
  funext i
  obtain ⟨a, r, j, rfl⟩ : ∃ (a : Fin 2) (r : Fin 4096) (j : Fin 1024), i = ix3 a r j := ⟨i 0, i 1, i 2, eq_ix3 i⟩
  rw [val_main_v27_apply, val_main_v24_apply, val_main_v26_apply, val_main_v25_apply]
  simp only [val_main_v23_apply, val_main_v22_apply, val_main_v21_apply, val_main_v20_apply, val_main_v19_apply, val_main_v18_apply,
    val_main_v17_apply, val_main_v16_apply, val_main_v15_apply, val_main_v14_apply, val_main_v13_apply, val_main_cst_3_apply,
    val_main_v12_apply, val_main_v11_apply, val_main_v10_apply, val_main_v9_apply, val_main_cst_2_apply, val_main_v8_apply,
    val_main_v7_apply, val_main_cst_1_apply, val_main_v6_apply, val_main_v5_apply, val_main_v4_apply, val_main_v3_apply,
    val_main_v2_apply, val_main_cst_0_apply, val_main_v1_apply, val_main_v0_apply, val_main_cst_apply]
  simp only [lhs_row, rhs_col, mean_row, mean_row', var_row, scale_at, bias_at, obias_at,
    Ideal.addf_def, Ideal.mulf_def, Ideal.subf_def, Ideal.hostDivf_def, Ideal.hostUnary_rsqrt_def, Ideal.ofBits_def,
    Ideal.ofBits_zero_f32, zero_add]
  show _ = Cert.LnProj.proj (fun k => x0 (ix3 a r k)) (fun k => x2 (ix1 k)) (fun k => x3 (ix1 k)) (fun k j => x4 (ix2 k j)) (fun j => x5 (ix1 j)) j
  unfold Cert.LnProj.proj
  simp only [Cert.LnProj.normFolded_eq_normChained]
  rfl

/-- The second branch is the first branch's expression on the other five arguments. -/
theorem ref_second (x1 : S2x4096x4096.Idx → EReal) (x6 x7 : S4096.Idx → EReal) (x8 : S4096x1024.Idx → EReal) (x9 : S1024.Idx → EReal) :
    val_main_v55 (F := Ideal) x1 x6 x7 x8 x9 = val_main_v27 (F := Ideal) x1 x6 x7 x8 x9 := rfl

end Cert.ReferenceIdeal.Hand
end
-- ==== Proof.lean ====
/-
  Two LayerNorm-and-projection branches, each run as one call over 32 blocks of 256 rows, against the same two branches
  written with plain array operations: the results agree entry by entry as extended reals.

  For one branch, entry (a, r, j) of the result is a function of row (a, r) of the features, the scale and bias vectors,
  column j of the weights and entry j of the output bias: centre the row by its mean, multiply by the reciprocal square
  root of the variance plus a small constant, by the scale, add the bias, contract against the weights' column, add the
  output bias (`Cert.LnProj.proj`). The kernel forms the product as centred × (reciprocal root × scale), the reference
  as (centred × reciprocal root) × scale: the same extended real, by associativity of the product, with no appeal to
  the inputs being finite. Sums over the 4096 lanes are sums of extended reals in either program, so neither their
  order nor the kernel's tiling by blocks of rows matters; changes of float format are the identity.

  The kernel's side: what one call stores (Payload), what a call leaves in its result array (FirstCall, SecondCall),
  the host's re-layings around the calls (Relayout, KernelValue), and the program's run read back in full (KernelRun).
  The reference's side: its generated run and its stages read at an index (RefValue). Both end at `Cert.LnProj.whole`
  of the branch's five arguments. The idealised kernel is the kernel's own text read over the extended reals (no
  rewrite was applied), and the three programs terminate with their arguments unchanged.
-/
import proofs.«149808_j43250320671027_2_alg».proof.Defs
import proofs.«149808_j43250320671027_2_alg».proof.Proof.Gen.Kernel
import proofs.«149808_j43250320671027_2_alg».proof.Proof.Gen.Kernel.Skeleton
import proofs.«149808_j43250320671027_2_alg».proof.Proof.Gen.Kernel.Launch
import proofs.«149808_j43250320671027_2_alg».proof.Proof.Gen.Kernel.Points
import proofs.«149808_j43250320671027_2_alg».proof.Proof.Gen.Kernel.Frame
import proofs.«149808_j43250320671027_2_alg».proof.Proof.Gen.KernelIdeal
import proofs.«149808_j43250320671027_2_alg».proof.Proof.Gen.KernelIdeal.Skeleton
import proofs.«149808_j43250320671027_2_alg».proof.Proof.Gen.KernelIdeal.Launch
import proofs.«149808_j43250320671027_2_alg».proof.Proof.Gen.KernelIdeal.Points
import proofs.«149808_j43250320671027_2_alg».proof.Proof.Gen.KernelIdeal.Frame
import proofs.«149808_j43250320671027_2_alg».proof.Proof.Gen.ReferenceIdeal
import proofs.«149808_j43250320671027_2_alg».proof.Proof.Gen.ReferenceIdeal.Run
import proofs.«149808_j43250320671027_2_alg».proof.Proof.Gen.ReferenceIdeal.Read
import proofs.«149808_j43250320671027_2_alg».proof.Proof.Gen.Pre_finite_inputs
import proofs.«149808_j43250320671027_2_alg».proof.Proof.KernelValue
import proofs.«149808_j43250320671027_2_alg».proof.Proof.RefValue
import Idealize.ShloMosaic.Adequacy
import Idealize.ShloMosaic.Init

noncomputable section

namespace Cert.Proof

open Idealize.ShloMosaic Idealize.SL.Sem

/-- The kernel as printed terminates with its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for the reading over the extended reals. -/
theorem preserves : Cert.preserves_Kernel_KernelIdeal := trivial

/-- From memories that agree on the ten arguments both programs run, and each of the two results is the same array in
    both: the branch's result of that branch's five arguments. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ?_) (Cert.ReferenceIdeal.Value.run (F := Ideal) m' ρ')
  obtain ⟨h1, h2, hkept⟩ := h c
  obtain ⟨g0, g1, g2, g3, g4, g5, g6, g7, g8, g9⟩ := hagree c
  refine ⟨h1.trans ?_, h2.trans ?_, hkept⟩
  · rw [Cert.ReferenceIdeal.Read.val_main_v27_eq, Cert.ReferenceIdeal.Hand.ref_first, g0, g2, g3, g4, g5]
  · rw [Cert.ReferenceIdeal.Read.val_main_v55_eq, Cert.ReferenceIdeal.Hand.ref_second, Cert.ReferenceIdeal.Hand.ref_first, g1, g6, g7, g8, g9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
